-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x2048 : Shape := ⟨2, ![4096, 2048]⟩
abbrev S2048 : Shape := ⟨1, ![2048]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x4096 .f32) (main_arg1 : FVec F S4096x2048 .f32) (main_arg2 : FVec F S4096x2048 .f32) (main_arg3 : FVec F S2048 .f32) (main_arg4 : FVec F S4096 .f32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S8192x4096 : Shape := ⟨2, ![8192, 4096]⟩
abbrev S4096x2048 : Shape := ⟨2, ![4096, 2048]⟩
abbrev S2048 : Shape := ⟨1, ![2048]⟩
abbrev S4096 : Shape := ⟨1, ![4096]⟩
abbrev S1x2048 : Shape := ⟨2, ![1, 2048]⟩
abbrev S1x4096 : Shape := ⟨2, ![1, 4096]⟩
abbrev S256x2048 : Shape := ⟨2, ![256, 2048]⟩
abbrev S128x4096 : Shape := ⟨2, ![128, 4096]⟩
abbrev S128x2048 : Shape := ⟨2, ![128, 2048]⟩

abbrev nBuf : Space → Nat
  | .hbm => 12
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096, .f32⟩
  | .hbm, ⟨5, _⟩ => ⟨S4096, .f32⟩
  | .hbm, ⟨6, _⟩ => ⟨S1x2048, .f32⟩
  | .hbm, ⟨7, _⟩ => ⟨S1x4096, .f32⟩
  | .hbm, ⟨8, _⟩ => ⟨S1x4096, .f32⟩
  | .hbm, ⟨9, _⟩ => ⟨S4096x2048, .bf16⟩
  | .hbm, ⟨10, _⟩ => ⟨S4096x2048, .bf16⟩
  | .hbm, ⟨11, _⟩ => ⟨S8192x4096, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S128x4096, .f32⟩
  | .local _ .vmem, ⟨10, _⟩ => ⟨S128x4096, .f32⟩
  | .local _ .vmem, ⟨11, _⟩ => ⟨S4096x2048, .bf16⟩
  | .local _ .vmem, ⟨12, _⟩ => ⟨S4096x2048, .bf16⟩
  | .local _ .vmem, ⟨13, _⟩ => ⟨S1x4096, .f32⟩
  | .local _ .vmem, ⟨14, _⟩ => ⟨S1x4096, .f32⟩
  | .local _ .vmem, ⟨15, _⟩ => ⟨S128x4096, .f32⟩
  | .local _ .vmem, ⟨16, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S2048_S1x2048 : S2048.ShapeCasts S1x2048
  shapeCasts_S4096_S1x4096 : S4096.ShapeCasts S1x4096
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S128x4096_S128x4096_0_0 : ∀ a, (![0, 0] : Fin 2 → Nat) a + S128x4096.size a ≤ S128x4096.size a
  h_S128x4096 : 0 < S128x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  dot_S128x4096_S4096x2048_S128x2048_1_0_0_1_n_n_wf : DotDims.WF S128x4096 S4096x2048 S128x2048 [1] [0] [0] [1] [] []
  dot_S128x2048_S4096x2048_S128x4096_1_1_0_0_n_n_wf : DotDims.WF S128x2048 S4096x2048 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S4096x2048.size a
  hwx0_3 : ∀ i : grid0.Coords, EltTy.bits .bf16 = 32 ∨ (Rect.block (s := S4096x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S4096x2048.size a
  hwx0_4 : ∀ i : grid0.Coords, EltTy.bits .bf16 = 32 ∨ (Rect.block (s := S4096x2048) S256x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .f32 = 32 ∨ (Rect.block (s := S8192x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x2048.size a ≤ S4096x2048.size a
  hwx1_1 : ∀ i : grid1.Coords, EltTy.bits .bf16 = 32 ∨ (Rect.block (s := S4096x2048) S4096x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x2048.size a ≤ S4096x2048.size a
  hwx1_2 : ∀ i : grid1.Coords, EltTy.bits .bf16 = 32 ∨ (Rect.block (s := S4096x2048) S4096x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x4096.size a ≤ S8192x4096.size a
  hwx1_5 : ∀ i : grid1.Coords, EltTy.bits .f32 = 32 ∨ (Rect.block (s := S8192x4096) S128x4096.size (cc1_transform_5 i) (hinb1_5 i)).WholeWords (EltTy.packing .f32)

variable [Facts₀]

def dot_S128x4096_S4096x2048_S128x2048_1_0_0_1_n_n : DotDims S128x4096 S4096x2048 S128x2048 where
  lhsContracting := [1]
  rhsContracting := [0]
  lhsNonContracting := [0]
  rhsNonContracting := [1]
  lhsBatch := []
  rhsBatch := []
  wf := dot_S128x4096_S4096x2048_S128x2048_1_0_0_1_n_n_wf
def dot_S128x2048_S4096x2048_S128x4096_1_1_0_0_n_n : DotDims S128x2048 S4096x2048 S128x4096 where
  lhsContracting := [1]
  rhsContracting := [1]
  lhsNonContracting := [0]
  rhsNonContracting := [0]
  lhsBatch := []
  rhsBatch := []
  wf := dot_S128x2048_S4096x2048_S128x4096_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S4096x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S4096x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S128x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x2048 : Shape := ⟨2, ![4096, 2048]⟩
abbrev S2048 : Shape := ⟨1, ![2048]⟩
abbrev S4096 : Shape := ⟨1, ![4096]⟩
abbrev S_ : Shape := ⟨0, ![]⟩
abbrev S1x4096 : Shape := ⟨2, ![1, 4096]⟩
abbrev S8192x2048 : Shape := ⟨2, ![8192, 2048]⟩
abbrev S1x2048 : Shape := ⟨2, ![1, 2048]⟩
abbrev S2048x4096 : Shape := ⟨2, ![2048, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096, .f32⟩
  | .hbm, ⟨5, _⟩ => ⟨S4096, .f32⟩
  | .hbm, ⟨6, _⟩ => ⟨S_, .f32⟩
  | .hbm, ⟨7, _⟩ => ⟨S4096x2048, .f32⟩
  | .hbm, ⟨8, _⟩ => ⟨S4096x2048, .i1⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .i1⟩
  | .hbm, ⟨18, _⟩ => ⟨S_, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S2048x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_cst_3 : Ref sig .tc := ⟨.hbm, 18, rfl⟩
abbrev main_cst_4 : Ref sig .tc := ⟨.hbm, 19, rfl⟩
abbrev main_call1_v0 : Ref sig .tc := ⟨.hbm, 20, rfl⟩
abbrev main_call1_v1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  transposes_S4096x2048_S2048x4096_1_0 : S4096x2048.Transposes [1, 0] S2048x4096
  dot_S8192x4096_S4096x2048_S8192x2048_1_0_0_1_n_n_wf : DotDims.WF S8192x4096 S4096x2048 S8192x2048 [1] [0] [0] [1] [] []
  dot_S8192x2048_S2048x4096_S8192x4096_1_0_0_1_n_n_wf : DotDims.WF S8192x2048 S2048x4096 S8192x4096 [1] [0] [0] [1] [] []

variable [Facts₀]

def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.KernelRun.lean ====
/-
  The idealized kernel's run with its result named. The program is three segments: the host
  reshapes of s, h_in and h_out; the binarizing region; the two-stage product region. Every weakly
  fair execution terminates without a fault, and in the final state the result array holds the last
  segment boundary's contents of that buffer, the six argument arrays being as launched. What
  those contents are, as a function of the arguments, is read in the modules that import this one.
-/
import proofs.«120608_j59115929862477_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result array
    ends at the contents the last segment leaves in it, and the arguments end as launched. -/
theorem run_named : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

/-- The result buffer is the product region's output window, so the last boundary's contents of it
    are what that region's write-backs leave; the region is entered from the binarizing region's
    exit contents. -/
theorem result_at_exit (c : Dev nD) :
    W3 m ρ c (Proc.devRef .tc main_v4) = (dat1 (V2 m ρ) c).arrAt 5 cfg1.N :=
  W3_arr m ρ c 5

end Cert.KernelIdeal.Out

end
-- ==== Proof.Law.lean ====
/-
  The mathematics of the low-rank binarized linear layer, stated once over plain index types and
  independent of either program.

  With sg a = +1 when a ≥ 0 and -1 otherwise, both programs compute, for a token m and an output
  channel o,

      y m o = (∑ r, t m r * sg (u o r)) * h_out o

  where the kernel folds the per-rank scale into the binarized factor before the first product,

      t m r = ∑ i, (x m i * h_in i) * (sg (v i r) * s r),

  and the reference scales after it,

      t m r = (∑ i, (x m i * h_in i) * sg (v i r)) * s r.

  The two agree by distributivity of multiplication over a finite sum. On the extended reals that
  law fails at infinities (an infinite s against a sum whose terms cancel), so it is stated for
  x, h_in and s real-valued; sg is always ±1, whatever u and v are.
-/
import Idealize.ShloMosaic.PureOps.Ideal
import Idealize.ShloMosaic.PureOps.Ideal.Laws
import Idealize.ShloMosaic.Lib.ValueIdx

noncomputable section

namespace Cert.LowRank

open Idealize.ShloMosaic Idealize.ShloMosaic.ValueIdx

/-- +1 for a ≥ 0, -1 otherwise, spelt as both programs spell it: a comparison against the zero
    pattern selecting between the patterns of 1.0 and -1.0. -/
def sg (a : EReal) : EReal :=
  Scalar.select (FloatOps.cmpf (F := Ideal) (φ := .f32) .oge a (Ideal.ofBits .f32 0x00000000#32))
    (Ideal.ofBits .f32 0x3F800000#32) (Ideal.ofBits .f32 0xBF800000#32)

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

/-- The sign is a real number, whatever its argument. -/
theorem sg_real (a : EReal) : ∃ r : ℝ, sg a = (r : EReal) := by
  unfold sg Scalar.select
  split
  · exact ⟨1, ofBits_one⟩
  · exact ⟨-1, ofBits_neg_one⟩

/-- A two-axis array from a function of its two coordinates. -/
def arr2 {a b : Nat} (f : Fin a → Fin b → EReal) : (⟨2, ![a, b]⟩ : Shape).Idx → EReal :=
  fun j => f (j 0) (j 1)

theorem arr2_ix2 {a b : Nat} (f : Fin a → Fin b → EReal) (p : Fin a) (q : Fin b) : arr2 f (ix2 p q) = f p q := rfl

/-- The binarized factor: entrywise sign. -/
def signs (u : Fin 4096 → Fin 2048 → EReal) : Fin 4096 → Fin 2048 → EReal := fun o r => sg (u o r)

/-- The binarized factor with the per-rank scale folded in. -/
def scaledSigns (v : Fin 4096 → Fin 2048 → EReal) (s : Fin 2048 → EReal) : Fin 4096 → Fin 2048 → EReal :=
  fun i r => sg (v i r) * s r

/-- The two-stage product on given factors: tokens by inputs scaled per input channel, times bv,
    times the transpose of bu, scaled per output channel. -/
def twoStage (x : Fin 8192 → Fin 4096 → EReal) (bv bu : Fin 4096 → Fin 2048 → EReal) (hin hout : Fin 4096 → EReal) :
    Fin 8192 → Fin 4096 → EReal :=
  fun m o => (∑ r : Fin 2048, (∑ i : Fin 4096, (x m i * hin i) * bv i r) * bu o r) * hout o

/-- The reference's form: the per-rank scale applied after the first product. -/
def scaledAfter (x : Fin 8192 → Fin 4096 → EReal) (u v : Fin 4096 → Fin 2048 → EReal) (s : Fin 2048 → EReal)
    (hin hout : Fin 4096 → EReal) : Fin 8192 → Fin 4096 → EReal :=
  fun m o => (∑ r : Fin 2048, ((∑ i : Fin 4096, (x m i * hin i) * sg (v i r)) * s r) * sg (u o r)) * hout o

/-- A finite sum of real numbers, taken in the extended reals, is the real sum. -/
theorem coe_sum {ι : Type} (t : Finset ι) (f : ι → ℝ) : (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- A real factor moves out of a finite sum of products of reals. -/
theorem sum_mul_scale {ι : Type} [Fintype ι] (a b : ι → EReal) (s : EReal)
    (ha : ∀ i, ∃ r : ℝ, a i = (r : EReal)) (hb : ∀ i, ∃ r : ℝ, b i = (r : EReal)) (hs : ∃ r : ℝ, s = (r : EReal)) :
    (∑ i, a i * (b i * s)) = (∑ i, a i * b i) * s := by
  choose a' ha' using ha
  choose b' hb' using hb
  obtain ⟨s', rfl⟩ := hs
  simp only [ha', hb', ← EReal.coe_mul]
  rw [coe_sum, coe_sum, ← EReal.coe_mul, Finset.sum_mul]
  refine congrArg _ (Finset.sum_congr rfl fun i _ => ?_)
  ring

/-- THE LAW: folding the per-rank scale into the binarized factor before the first product gives the
    reference's result, when x, h_in and s are real-valued. -/
theorem twoStage_eq_scaledAfter (x : Fin 8192 → Fin 4096 → EReal) (u v : Fin 4096 → Fin 2048 → EReal) (s : Fin 2048 → EReal)
    (hin hout : Fin 4096 → EReal)
    (hx : ∀ m i, ∃ r : ℝ, x m i = (r : EReal)) (hh : ∀ i, ∃ r : ℝ, hin i = (r : EReal)) (hs : ∀ r, ∃ q : ℝ, s r = (q : EReal)) :
    twoStage x (scaledSigns v s) (signs u) hin hout = scaledAfter x u v s hin hout := by
  funext m o
  unfold twoStage scaledAfter scaledSigns signs
  refine congrArg (· * hout o) (Finset.sum_congr rfl fun r _ => congrArg (· * sg (u o r)) ?_)
  refine sum_mul_scale (fun i => x m i * hin i) (fun i => sg (v i r)) (s r) (fun i => ?_) (fun i => sg_real _) (hs r)
  obtain ⟨a, ha⟩ := hx m i
  obtain ⟨b, hb⟩ := hh i
  exact ⟨a * b, by rw [ha, hb, EReal.coe_mul]⟩

/-! ## The same over arrays

Both programs hold their data as arrays over index tuples; these are the two forms of the result as
functions of the six argument arrays. -/

/-- A two-axis array as a function of its two coordinates. -/
def curry2 {a b : Nat} (A : (⟨2, ![a, b]⟩ : Shape).Idx → EReal) : Fin a → Fin b → EReal := fun p q => A (ix2 p q)

/-- A one-axis array as a function of its coordinate. -/
def curry1 {a : Nat} (A : (⟨1, ![a]⟩ : Shape).Idx → EReal) : Fin a → EReal := fun p => A (ix1 p)

/-- The kernel's form of the result: the scale folded into the binarized factor. -/
def folded (X : (⟨2, ![8192, 4096]⟩ : Shape).Idx → EReal) (U Vv : (⟨2, ![4096, 2048]⟩ : Shape).Idx → EReal)
    (S : (⟨1, ![2048]⟩ : Shape).Idx → EReal) (Hin Hout : (⟨1, ![4096]⟩ : Shape).Idx → EReal) :
    (⟨2, ![8192, 4096]⟩ : Shape).Idx → EReal :=
  arr2 (twoStage (curry2 X) (scaledSigns (curry2 Vv) (curry1 S)) (signs (curry2 U)) (curry1 Hin) (curry1 Hout))

/-- The reference's form of the result: the scale applied after the first product. -/
def layer (X : (⟨2, ![8192, 4096]⟩ : Shape).Idx → EReal) (U Vv : (⟨2, ![4096, 2048]⟩ : Shape).Idx → EReal)
    (S : (⟨1, ![2048]⟩ : Shape).Idx → EReal) (Hin Hout : (⟨1, ![4096]⟩ : Shape).Idx → EReal) :
    (⟨2, ![8192, 4096]⟩ : Shape).Idx → EReal :=
  arr2 (scaledAfter (curry2 X) (curry2 U) (curry2 Vv) (curry1 S) (curry1 Hin) (curry1 Hout))

/-- The two forms agree when x, s and h_in hold real numbers. -/
theorem folded_eq_layer (X : (⟨2, ![8192, 4096]⟩ : Shape).Idx → EReal) (U Vv : (⟨2, ![4096, 2048]⟩ : Shape).Idx → EReal)
    (S : (⟨1, ![2048]⟩ : Shape).Idx → EReal) (Hin Hout : (⟨1, ![4096]⟩ : Shape).Idx → EReal)
    (hX : ∀ j, ∃ r : ℝ, X j = (r : EReal)) (hS : ∀ j, ∃ r : ℝ, S j = (r : EReal)) (hHin : ∀ j, ∃ r : ℝ, Hin j = (r : EReal)) :
    folded X U Vv S Hin Hout = layer X U Vv S Hin Hout :=
  congrArg arr2 (twoStage_eq_scaledAfter _ _ _ _ _ _ (fun _ _ => hX _) (fun _ => hHin _) (fun _ => hS _))

end Cert.LowRank

end
-- ==== Proof.Bodies.lean ====
/-
  The arithmetic of the two kernel bodies read at one element.

  The binarizing body stores, for a block of 256 rows, the sign of u entrywise and the sign of v
  times the rank's scale (the scale is one row, repeated down the block). The product body stores,
  for a block of 128 tokens, ((x * h_in) bv) bu^T scaled by h_out: two matrix products into zero
  accumulators, each a plain sum over its one contracted axis, with the changes of float format
  between them the identity on the extended reals.
-/
import proofs.«120608_j59115929862477_2_alg».proof.Proof.Gen.KernelIdeal.Skeleton
import proofs.«120608_j59115929862477_2_alg».proof.Proof.Law
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Cert.LowRank
open Idealize.ShloMosaic Idealize.ShloMosaic.ValueIdx

/-- The first store of the binarizing body: the sign of the loaded u block, entry by entry. -/
theorem signs_at (x0 : Vec Ideal S256x2048 .f32) (j : S256x2048.Idx) :
    k0_pay1 (F := Ideal) x0 j = sg (x0 j) := rfl

/-- The second store: the sign of the loaded v block times the scale row at the entry's column. -/
theorem scaledSigns_at (x1 : Vec Ideal S256x2048 .f32) (x2 : Vec Ideal S1x2048 .f32) (p : Fin 256) (q : Fin 2048) :
    k0_pay2 (F := Ideal) x1 x2 (ix2 p q) = sg (x1 (ix2 p q)) * x2 (ix2 0 q) := by
  unfold k0_pay2
  show sg (x1 (ix2 p q)) * broadcastTo S256x2048 (shapeCast S1x2048 x2 shapeCasts_S1x2048_S1x2048) broadcasts_S1x2048_S256x2048 (ix2 p q) = _
  rw [shapeCast_self, broadcastTo_apply x2 broadcasts_S1x2048_S256x2048 (ix2 p q) (ix2 0 q) (fun a => by
    match a with
    | ⟨0, _⟩ => rfl
    | ⟨1, _⟩ => rfl)]

/-! The operand indices of the two products, coordinate by coordinate: a non-contracted axis
    carries the result index's coordinate, the contracted axis the summation index. -/

theorem first_lhs_0 (i : S128x2048.Idx) (k : dot_S128x4096_S4096x2048_S128x2048_1_0_0_1_n_n.contr.Idx) : (dot_S128x4096_S4096x2048_S128x2048_1_0_0_1_n_n.lhsIdx i k 0).val = (i 0).val := by
  unfold DotDims.lhsIdx
  rw [dif_neg (show ¬(0 : Fin S128x4096.rank) ∈ dot_S128x4096_S4096x2048_S128x2048_1_0_0_1_n_n.lhsBatch by decide), dif_pos (show (0 : Fin S128x4096.rank) ∈ dot_S128x4096_S4096x2048_S128x2048_1_0_0_1_n_n.lhsNonContracting by decide)]
  rfl
theorem first_lhs_1 (i : S128x2048.Idx) (k : dot_S128x4096_S4096x2048_S128x2048_1_0_0_1_n_n.contr.Idx) : (dot_S128x4096_S4096x2048_S128x2048_1_0_0_1_n_n.lhsIdx i k 1).val = (k ⟨0, by decide⟩).val :=
  dot_S128x4096_S4096x2048_S128x2048_1_0_0_1_n_n.lhsIdx_val_of_single rfl i k
theorem first_rhs_0 (i : S128x2048.Idx) (k : dot_S128x4096_S4096x2048_S128x2048_1_0_0_1_n_n.contr.Idx) : (dot_S128x4096_S4096x2048_S128x2048_1_0_0_1_n_n.rhsIdx i k 0).val = (k ⟨0, by decide⟩).val :=
  dot_S128x4096_S4096x2048_S128x2048_1_0_0_1_n_n.rhsIdx_val_of_single rfl i k
theorem first_rhs_1 (i : S128x2048.Idx) (k : dot_S128x4096_S4096x2048_S128x2048_1_0_0_1_n_n.contr.Idx) : (dot_S128x4096_S4096x2048_S128x2048_1_0_0_1_n_n.rhsIdx i k 1).val = (i 1).val := by
  unfold DotDims.rhsIdx
  rw [dif_neg (show ¬(1 : Fin S4096x2048.rank) ∈ dot_S128x4096_S4096x2048_S128x2048_1_0_0_1_n_n.rhsBatch by decide), dif_pos (show (1 : Fin S4096x2048.rank) ∈ dot_S128x4096_S4096x2048_S128x2048_1_0_0_1_n_n.rhsNonContracting by decide)]
  rfl

theorem second_lhs_0 (i : S128x4096.Idx) (k : dot_S128x2048_S4096x2048_S128x4096_1_1_0_0_n_n.contr.Idx) : (dot_S128x2048_S4096x2048_S128x4096_1_1_0_0_n_n.lhsIdx i k 0).val = (i 0).val := by
  unfold DotDims.lhsIdx
  rw [dif_neg (show ¬(0 : Fin S128x2048.rank) ∈ dot_S128x2048_S4096x2048_S128x4096_1_1_0_0_n_n.lhsBatch by decide), dif_pos (show (0 : Fin S128x2048.rank) ∈ dot_S128x2048_S4096x2048_S128x4096_1_1_0_0_n_n.lhsNonContracting by decide)]
  rfl
theorem second_lhs_1 (i : S128x4096.Idx) (k : dot_S128x2048_S4096x2048_S128x4096_1_1_0_0_n_n.contr.Idx) : (dot_S128x2048_S4096x2048_S128x4096_1_1_0_0_n_n.lhsIdx i k 1).val = (k ⟨0, by decide⟩).val :=
  dot_S128x2048_S4096x2048_S128x4096_1_1_0_0_n_n.lhsIdx_val_of_single rfl i k
theorem second_rhs_0 (i : S128x4096.Idx) (k : dot_S128x2048_S4096x2048_S128x4096_1_1_0_0_n_n.contr.Idx) : (dot_S128x2048_S4096x2048_S128x4096_1_1_0_0_n_n.rhsIdx i k 0).val = (i 1).val := by
  unfold DotDims.rhsIdx
  rw [dif_neg (show ¬(0 : Fin S4096x2048.rank) ∈ dot_S128x2048_S4096x2048_S128x4096_1_1_0_0_n_n.rhsBatch by decide), dif_pos (show (0 : Fin S4096x2048.rank) ∈ dot_S128x2048_S4096x2048_S128x4096_1_1_0_0_n_n.rhsNonContracting by decide)]
  rfl
theorem second_rhs_1 (i : S128x4096.Idx) (k : dot_S128x2048_S4096x2048_S128x4096_1_1_0_0_n_n.contr.Idx) : (dot_S128x2048_S4096x2048_S128x4096_1_1_0_0_n_n.rhsIdx i k 1).val = (k ⟨0, by decide⟩).val :=
  dot_S128x2048_S4096x2048_S128x4096_1_1_0_0_n_n.rhsIdx_val_of_single rfl i k

/-- The first product of the body at a token row p and a rank q: the sum over the 4096 input
    channels of the left operand's row p against the right operand's column q. -/
theorem firstProduct_at (l : FVec Ideal S128x4096 .bf16) (r : FVec Ideal S4096x2048 .bf16) (p : Fin 128) (q : Fin 2048) :
    matmul dot_S128x4096_S4096x2048_S128x2048_1_0_0_1_n_n none l r (constant (F := Ideal) S128x2048 .f32 0x00000000#32) (ix2 p q)
      = ∑ k : Fin 4096, l (ix2 p k) * r (ix2 k q) := by
  refine (Ideal.matmul_constant_zero_apply dot_S128x4096_S4096x2048_S128x2048_1_0_0_1_n_n none l r (ix2 p q)).trans ?_
  rw [← Equiv.sum_comp (contrEquiv1 dot_S128x4096_S4096x2048_S128x2048_1_0_0_1_n_n 4096 rfl rfl).symm]
  refine Finset.sum_congr rfl fun k _ => ?_
  have hk := contrEquiv1_symm_val dot_S128x4096_S4096x2048_S128x2048_1_0_0_1_n_n 4096 rfl rfl k
  have el : dot_S128x4096_S4096x2048_S128x2048_1_0_0_1_n_n.lhsIdx (ix2 p q) ((contrEquiv1 dot_S128x4096_S4096x2048_S128x2048_1_0_0_1_n_n 4096 rfl rfl).symm k) = ix2 p k :=
    funext fun a => Fin.ext (by
      match a with
      | ⟨0, _⟩ => exact first_lhs_0 _ _
      | ⟨1, _⟩ => exact (first_lhs_1 _ _).trans hk)
  have er : dot_S128x4096_S4096x2048_S128x2048_1_0_0_1_n_n.rhsIdx (ix2 p q) ((contrEquiv1 dot_S128x4096_S4096x2048_S128x2048_1_0_0_1_n_n 4096 rfl rfl).symm k) = ix2 k q :=
    funext fun a => Fin.ext (by
      match a with
      | ⟨0, _⟩ => exact (first_rhs_0 _ _).trans hk
      | ⟨1, _⟩ => exact first_rhs_1 _ _)
  rw [el, er]

/-- The second product at a token row p and an output channel q: both operands are contracted on
    their rank axis, so it is the sum over the 2048 ranks of the left operand's row p against the
    right operand's ROW q (a product with the transpose). -/
theorem secondProduct_at (l : FVec Ideal S128x2048 .bf16) (r : FVec Ideal S4096x2048 .bf16) (p : Fin 128) (q : Fin 4096) :
    matmul dot_S128x2048_S4096x2048_S128x4096_1_1_0_0_n_n none l r (constant (F := Ideal) S128x4096 .f32 0x00000000#32) (ix2 p q)
      = ∑ k : Fin 2048, l (ix2 p k) * r (ix2 q k) := by
  refine (Ideal.matmul_constant_zero_apply dot_S128x2048_S4096x2048_S128x4096_1_1_0_0_n_n none l r (ix2 p q)).trans ?_
  rw [← Equiv.sum_comp (contrEquiv1 dot_S128x2048_S4096x2048_S128x4096_1_1_0_0_n_n 2048 rfl rfl).symm]
  refine Finset.sum_congr rfl fun k _ => ?_
  have hk := contrEquiv1_symm_val dot_S128x2048_S4096x2048_S128x4096_1_1_0_0_n_n 2048 rfl rfl k
  have el : dot_S128x2048_S4096x2048_S128x4096_1_1_0_0_n_n.lhsIdx (ix2 p q) ((contrEquiv1 dot_S128x2048_S4096x2048_S128x4096_1_1_0_0_n_n 2048 rfl rfl).symm k) = ix2 p k :=
    funext fun a => Fin.ext (by
      match a with
      | ⟨0, _⟩ => exact second_lhs_0 _ _
      | ⟨1, _⟩ => exact (second_lhs_1 _ _).trans hk)
  have er : dot_S128x2048_S4096x2048_S128x4096_1_1_0_0_n_n.rhsIdx (ix2 p q) ((contrEquiv1 dot_S128x2048_S4096x2048_S128x4096_1_1_0_0_n_n 2048 rfl rfl).symm k) = ix2 q k :=
    funext fun a => Fin.ext (by
      match a with
      | ⟨0, _⟩ => exact second_rhs_0 _ _
      | ⟨1, _⟩ => exact (second_rhs_1 _ _).trans hk)
  rw [el, er]

/-- The store of the product body at a token row p of the block and an output channel q. -/
theorem twoStage_at (x0 : Vec Ideal S128x4096 .f32) (x1 : Vec Ideal S1x4096 .f32) (x6 x10 : Vec Ideal S4096x2048 .bf16)
    (x13 : Vec Ideal S1x4096 .f32) (p : Fin 128) (q : Fin 4096) :
    k1_pay1 (F := Ideal) x0 x1 x6 x10 x13 (ix2 p q)
      = (∑ r : Fin 2048, (∑ i : Fin 4096, (x0 (ix2 p i) * x1 (ix2 0 i)) * x6 (ix2 i r)) * x10 (ix2 q r)) * x13 (ix2 0 q) := by
  unfold k1_pay1
  simp only [shapeCast_self]
  rw [mulf_apply, secondProduct_at]
  have hrow : ∀ (x : FVec Ideal S1x4096 .f32) (a : Fin 128) (b : Fin 4096),
      broadcastTo S128x4096 x broadcasts_S1x4096_S128x4096 (ix2 a b) = x (ix2 0 b) := fun x a b =>
    broadcastTo_apply x broadcasts_S1x4096_S128x4096 (ix2 a b) (ix2 0 b) (fun d => by
      match d with
      | ⟨0, _⟩ => rfl
      | ⟨1, _⟩ => rfl)
  rw [hrow]
  refine congrArg (· * x13 (ix2 0 q)) (Finset.sum_congr rfl fun r _ => ?_)
  rw [truncf_apply, firstProduct_at]
  refine congrArg (· * x10 (ix2 q r)) (Finset.sum_congr rfl fun i _ => ?_)
  rw [truncf_apply, mulf_apply, hrow]

end Cert.KernelIdeal.Body

end
-- ==== Proof.Binarize.lean ====
/-
  The binarizing region, as whole arrays. Its grid has 16 points; point t reads rows 256 t to
  256 t + 255 of u and of v and the one-row scale, and writes the same rows of its two results.
  The 16 row blocks tile the 4096 rows, so after the region the first result is the sign of u
  entrywise and the second the sign of v times the scale of the entry's column, as functions of
  whatever the buffers held when the region was entered.
-/
import proofs.«120608_j59115929862477_2_alg».proof.Proof.Gen.KernelIdeal.Frame
import proofs.«120608_j59115929862477_2_alg».proof.Proof.Bodies

set_option maxRecDepth 16384

noncomputable section

namespace Cert.KernelIdeal.Binarize

open Cert.KernelIdeal Cert.KernelIdeal.Gen Cert.KernelIdeal.Body Cert.LowRank
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The column of an entry, as an index into the one-row scale. -/
abbrev scaleIdx (i : S4096x2048.Idx) : S1x2048.Idx := fun a => match a with
  | ⟨0, _⟩ => ⟨0, Nat.one_pos⟩
  | ⟨1, _⟩ => ⟨(i 1).val, (i 1).isLt⟩

/-- The sign of u, entry by entry. -/
def signArr (c : Dev nD) : S4096x2048.Idx → EReal := fun i => sg (V c main_arg1 i)

/-- The sign of v times the scale of the entry's column. -/
def scaledSignArr (c : Dev nD) : S4096x2048.Idx → EReal := fun i => sg (V c main_arg2 i) * V c main_v0 (scaleIdx i)

/-- The block indices over the grid: the u and v blocks move with the result blocks, row block t at
    point t; the scale's block never moves. -/
theorem blockIdx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The second store at any entry of the block, with the scale read at the entry's column. -/
theorem scaledSigns_at' (x1 : Vec Ideal S256x2048 .f32) (x2 : Vec Ideal S1x2048 .f32) (j : S256x2048.Idx) :
    k0_pay2 (F := Ideal) x1 x2 j = sg (x1 j) * x2 (ix2 0 ⟨(j 1).val, (j 1).isLt⟩) := by
  obtain ⟨p, q, rfl⟩ : ∃ (p : Fin 256) (q : Fin 2048), j = ix2 p q := ⟨j 0, j 1, eq_ix2 j⟩
  exact scaledSigns_at x1 x2 p q

/-- What point t writes back to the first result is block t of the sign of u. -/
theorem flushed_sign (c : Dev nD) (t : Fin cfg0.N) :
    (dat0 V c).flushed 3 t = ((cfg0.win 3).blk t).view.read (Elt Ideal) (signArr V c) := by
  show (cfg0.win 3).cut (grid0.coords t) ((dat0 V c).after 3 t) = _
  rw [after0_3]
  unfold out0_3
  rw [View.canon_unit_zero zeros]
  simp only [View.ld_unit_zero (S := S256x2048) zeros]
  obtain ⟨e0, e1, -, -, -, -, e6, e7, -, -⟩ := blockIdx t
  funext j
  show sg (V c main_arg1 (((cfg0.win 0).blk t).view.emb j)) = sg (V c main_arg1 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 256 + 1 * (j 0).val = win0_3.index t (0 : Fin 2) * 256 + 1 * (j 0).val; omega
    | ⟨1, _⟩ => show win0_0.index t (1 : Fin 2) * 2048 + 1 * (j 1).val = win0_3.index t (1 : Fin 2) * 2048 + 1 * (j 1).val; omega
  rw [h0]

/-- What point t writes back to the second result is block t of the scaled sign of v. -/
theorem flushed_scaledSign (c : Dev nD) (t : Fin cfg0.N) :
    (dat0 V c).flushed 4 t = ((cfg0.win 4).blk t).view.read (Elt Ideal) (scaledSignArr V c) := by
  show (cfg0.win 4).cut (grid0.coords t) ((dat0 V c).after 4 t) = _
  rw [after0_4]
  unfold out0_4
  rw [View.canon_unit_zero zeros]
  simp only [View.ld_unit_zero (S := S256x2048) zeros, View.ld_unit_zero (S := S1x2048) zeros]
  obtain ⟨-, -, e2, e3, e4, e5, -, -, e8, e9⟩ := blockIdx t
  funext j
  refine (scaledSigns_at' _ _ j).trans ?_
  show sg (V c main_arg2 (((cfg0.win 1).blk t).view.emb j)) * V c main_v0 (((cfg0.win 2).blk t).view.emb (ix2 0 ⟨(j 1).val, (j 1).isLt⟩))
    = sg (V c main_arg2 (((cfg0.win 4).blk t).view.emb j)) * V c main_v0 (scaleIdx (((cfg0.win 4).blk t).view.emb j))
  have h1 : ((cfg0.win 1).blk t).view.emb j = ((cfg0.win 4).blk t).view.emb j := by
    funext a; apply Fin.ext
    match a with
    | ⟨0, _⟩ => show win0_1.index t (0 : Fin 2) * 256 + 1 * (j 0).val = win0_4.index t (0 : Fin 2) * 256 + 1 * (j 0).val; omega
    | ⟨1, _⟩ => show win0_1.index t (1 : Fin 2) * 2048 + 1 * (j 1).val = win0_4.index t (1 : Fin 2) * 2048 + 1 * (j 1).val; omega
  have h2 : ((cfg0.win 2).blk t).view.emb (ix2 0 ⟨(j 1).val, (j 1).isLt⟩) = scaleIdx (((cfg0.win 4).blk t).view.emb j) := by
    funext a; apply Fin.ext
    match a with
    | ⟨0, _⟩ => show win0_2.index t (0 : Fin 2) * 1 + 1 * 0 = 0; omega
    | ⟨1, _⟩ => show win0_2.index t (1 : Fin 2) * 2048 + 1 * (j 1).val = win0_4.index t (1 : Fin 2) * 2048 + 1 * (j 1).val; omega
  rw [h1, h2]

/-- An entry is in point t's block of the first result iff each coordinate is in the block's range. -/
theorem mem_blk_sign (t : Fin cfg0.N) (i : S4096x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v3_0).slice (win0_3.rect t)).set ↔ _
  rw [View.set_slice_whole, Rect.mem_set_unit]
  exact Iff.rfl

theorem mem_blk_scaledSign (t : Fin cfg0.N) (i : S4096x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v3_1).slice (win0_4.rect t)).set ↔ _
  rw [View.set_slice_whole, Rect.mem_set_unit]
  exact Iff.rfl

/-- Row r lies in the block of point r / 256: the row blocks tile the first result. -/
theorem cover_sign (i : S4096x2048.Idx) :
    ∃ t : Fin cfg0.N, (cfg0.win 3).flush t = true ∧ i ∈ ((cfg0.win 3).blk t).view.set := by
  have hN : cfg0.N = 16 := N_0
  have hi0 : (i 0).val < 4096 := (i 0).isLt
  have hi1 : (i 1).val < 2048 := (i 1).isLt
  refine ⟨⟨(i 0).val / 256, by rw [hN]; omega⟩, flush0_3 _, ?_⟩
  rw [mem_blk_sign]
  obtain ⟨-, -, -, -, -, -, e6, e7, -, -⟩ := blockIdx ⟨(i 0).val / 256, by rw [hN]; omega⟩
  intro a
  match a with
  | ⟨0, _⟩ => show win0_3.index _ (0 : Fin 2) * 256 ≤ (i 0).val ∧ (i 0).val < win0_3.index _ (0 : Fin 2) * 256 + 256; rw [e6]; show (i 0).val / 256 * 256 ≤ _ ∧ _ < (i 0).val / 256 * 256 + 256; omega
  | ⟨1, _⟩ => show win0_3.index _ (1 : Fin 2) * 2048 ≤ (i 1).val ∧ (i 1).val < win0_3.index _ (1 : Fin 2) * 2048 + 2048; rw [e7]; omega

theorem cover_scaledSign (i : S4096x2048.Idx) :
    ∃ t : Fin cfg0.N, (cfg0.win 4).flush t = true ∧ i ∈ ((cfg0.win 4).blk t).view.set := by
  have hN : cfg0.N = 16 := N_0
  have hi0 : (i 0).val < 4096 := (i 0).isLt
  have hi1 : (i 1).val < 2048 := (i 1).isLt
  refine ⟨⟨(i 0).val / 256, by rw [hN]; omega⟩, flush0_4 _, ?_⟩
  rw [mem_blk_scaledSign]
  obtain ⟨-, -, -, -, -, -, -, -, e8, e9⟩ := blockIdx ⟨(i 0).val / 256, by rw [hN]; omega⟩
  intro a
  match a with
  | ⟨0, _⟩ => show win0_4.index _ (0 : Fin 2) * 256 ≤ (i 0).val ∧ (i 0).val < win0_4.index _ (0 : Fin 2) * 256 + 256; rw [e8]; show (i 0).val / 256 * 256 ≤ _ ∧ _ < (i 0).val / 256 * 256 + 256; omega
  | ⟨1, _⟩ => show win0_4.index _ (1 : Fin 2) * 2048 ≤ (i 1).val ∧ (i 1).val < win0_4.index _ (1 : Fin 2) * 2048 + 2048; rw [e9]; omega

/-- After the region the first result is the sign of u. -/
theorem sign_final (c : Dev nD) : (dat0 V c).arrAt 3 cfg0.N = signArr V c :=
  (dat0 V c).arrAt_eq_of_cover 3 (signArr V c) (fun t _ => flushed_sign V c t) cover_sign

/-- After the region the second result is the sign of v times the scale. -/
theorem scaledSign_final (c : Dev nD) : (dat0 V c).arrAt 4 cfg0.N = scaledSignArr V c :=
  (dat0 V c).arrAt_eq_of_cover 4 (scaledSignArr V c) (fun t _ => flushed_scaledSign V c t) cover_scaledSign

end Cert.KernelIdeal.Binarize

end
-- ==== Proof.Product.lean ====
/-
  The product region, as a whole array. Its grid has 64 points; point t reads token rows 128 t to
  128 t + 127 of x, the whole of the two binarized factors and of the two channel scales, and
  writes the same token rows of the result. The 64 row blocks tile the 8192 tokens, so after the
  region the result at token m and output channel o is

      (∑ r, (∑ i, (x m i * h_in i) * bv i r) * bu o r) * h_out o

  of whatever the buffers held when the region was entered.
-/
import proofs.«120608_j59115929862477_2_alg».proof.Proof.Gen.KernelIdeal.Frame
import proofs.«120608_j59115929862477_2_alg».proof.Proof.Bodies

set_option maxRecDepth 16384

noncomputable section

namespace Cert.KernelIdeal.Product

open Cert.KernelIdeal Cert.KernelIdeal.Gen Cert.KernelIdeal.Body Cert.LowRank
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The two-stage product at token P and output channel Q of given arrays: x, the two factors, and
    the two channel scales as one-row arrays. -/
def productOf (X : S8192x4096.Idx → EReal) (BV BU : S4096x2048.Idx → EReal) (Hin Hout : S1x4096.Idx → EReal)
    (P : Fin 8192) (Q : Fin 4096) : EReal :=
  (∑ r : Fin 2048, (∑ i : Fin 4096, (X (ix2 P i) * Hin (ix2 0 i)) * BV (ix2 i r)) * BU (ix2 Q r)) * Hout (ix2 0 Q)

/-- The result at token P and output channel Q, from the region's entry contents. -/
def productAt (c : Dev nD) (P : Fin 8192) (Q : Fin 4096) : EReal :=
  productOf (V c main_arg0) (V c main_v3_1) (V c main_v3_0) (V c main_v1) (V c main_v2) P Q

/-- The same as an array over the result's indices. -/
def productArr (c : Dev nD) : S8192x4096.Idx → EReal :=
  fun j => productAt V c ⟨(j 0).val, (j 0).isLt⟩ ⟨(j 1).val, (j 1).isLt⟩

/-- The block indices over the grid: the token block of x and of the result is block t at point t;
    the factors and the channel scales are read whole at every point. -/
theorem blockIdx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body's store at row p and channel q of a block is the result at token P and channel Q, once
    each loaded operand is known to hold the entry contents at the matching places. -/
theorem store_eq_productAt (c : Dev nD) (x0 : Vec Ideal S128x4096 .f32) (x1 x2 : Vec Ideal S4096x2048 .bf16) (x3 x4 : Vec Ideal S1x4096 .f32)
    (p : Fin 128) (q : Fin 4096) (P : Fin 8192) (Q : Fin 4096)
    (h0 : ∀ i : Fin 4096, x0 (ix2 p i) = V c main_arg0 (ix2 P i))
    (h3 : ∀ i : Fin 4096, x3 (ix2 0 i) = V c main_v1 (ix2 0 i))
    (h1 : ∀ (i : Fin 4096) (r : Fin 2048), x1 (ix2 i r) = V c main_v3_1 (ix2 i r))
    (h2 : ∀ r : Fin 2048, x2 (ix2 q r) = V c main_v3_0 (ix2 Q r))
    (h4 : x4 (ix2 0 q) = V c main_v2 (ix2 0 Q)) :
    k1_pay1 (F := Ideal) x0 x3 x1 x2 x4 (ix2 p q) = productAt V c P Q := by
  rw [twoStage_at]
  unfold productAt productOf
  simp only [h0, h1, h2, h3, h4]

/-- What point t writes back is block t of the product array. -/
theorem flushed_product (c : Dev nD) (t : Fin cfg1.N) :
    (dat1 V c).flushed 5 t = ((cfg1.win 5).blk t).view.read (Elt Ideal) (productArr V c) := by
  show (cfg1.win 5).cut (grid1.coords t) ((dat1 V c).after 5 t) = _
  rw [after1_5]
  unfold out1_5
  rw [View.canon_unit_zero zeros]
  simp only [View.ld_unit_zero (S := S128x4096) zeros, View.ld_unit_zero (S := S1x4096) zeros, View.ld_unit_zero (S := S4096x2048) zeros]
  obtain ⟨e0, e1, e2, e3, e4, e5, e6, e7, e8, e9, e10, e11⟩ := blockIdx t
  funext j
  obtain ⟨p, q, rfl⟩ : ∃ (p : Fin 128) (q : Fin 4096), j = ix2 p q := ⟨j 0, j 1, eq_ix2 j⟩
  show k1_pay1 (F := Ideal) (iblk1 V c 0 t) (iblk1 V c 3 t) (iblk1 V c 1 t) (iblk1 V c 2 t) (iblk1 V c 4 t) (ix2 p q)
    = productArr V c (((cfg1.win 5).blk t).view.emb (ix2 p q))
  have hN : cfg1.N = 64 := N_1
  have ht : t.val < 64 := hN ▸ t.isLt
  refine store_eq_productAt V c (iblk1 V c 0 t) (iblk1 V c 1 t) (iblk1 V c 2 t) (iblk1 V c 3 t) (iblk1 V c 4 t) p q _ _ ?_ ?_ ?_ ?_ ?_
  · intro i
    show V c main_arg0 (((cfg1.win 0).blk t).view.emb (ix2 p i)) = _
    refine congrArg _ (funext fun a => Fin.ext ?_)
    match a with
    | ⟨0, _⟩ => show win1_0.index t (0 : Fin 2) * 128 + 1 * p.val = win1_5.index t (0 : Fin 2) * 128 + 1 * p.val; omega
    | ⟨1, _⟩ => show win1_0.index t (1 : Fin 2) * 4096 + 1 * i.val = i.val; omega
  · intro i
    show V c main_v1 (((cfg1.win 3).blk t).view.emb (ix2 0 i)) = _
    refine congrArg _ (funext fun a => Fin.ext ?_)
    match a with
    | ⟨0, _⟩ => show win1_3.index t (0 : Fin 2) * 1 + 1 * 0 = 0; omega
    | ⟨1, _⟩ => show win1_3.index t (1 : Fin 2) * 4096 + 1 * i.val = i.val; omega
  · intro i r
    show V c main_v3_1 (((cfg1.win 1).blk t).view.emb (ix2 i r)) = _
    refine congrArg _ (funext fun a => Fin.ext ?_)
    match a with
    | ⟨0, _⟩ => show win1_1.index t (0 : Fin 2) * 4096 + 1 * i.val = i.val; omega
    | ⟨1, _⟩ => show win1_1.index t (1 : Fin 2) * 2048 + 1 * r.val = r.val; omega
  · intro r
    show V c main_v3_0 (((cfg1.win 2).blk t).view.emb (ix2 q r)) = _
    refine congrArg _ (funext fun a => Fin.ext ?_)
    match a with
    | ⟨0, _⟩ => show win1_2.index t (0 : Fin 2) * 4096 + 1 * q.val = win1_5.index t (1 : Fin 2) * 4096 + 1 * q.val; omega
    | ⟨1, _⟩ => show win1_2.index t (1 : Fin 2) * 2048 + 1 * r.val = r.val; omega
  · show V c main_v2 (((cfg1.win 4).blk t).view.emb (ix2 0 q)) = _
    refine congrArg _ (funext fun a => Fin.ext ?_)
    match a with
    | ⟨0, _⟩ => show win1_4.index t (0 : Fin 2) * 1 + 1 * 0 = 0; omega
    | ⟨1, _⟩ => show win1_4.index t (1 : Fin 2) * 4096 + 1 * q.val = win1_5.index t (1 : Fin 2) * 4096 + 1 * q.val; omega

/-- An entry is in point t's block of the result iff each coordinate is in the block's range. -/
theorem mem_blk (t : Fin cfg1.N) (i : S8192x4096.Idx) :
    i ∈ ((cfg1.win 5).blk t).view.set ↔ ∀ a : Fin 2, win1_5.index t a * S128x4096.size a ≤ (i a).val ∧ (i a).val < win1_5.index t a * S128x4096.size a + S128x4096.size a := by
  show i ∈ ((View.whole main_v4).slice (win1_5.rect t)).set ↔ _
  rw [View.set_slice_whole, Rect.mem_set_unit]
  exact Iff.rfl

/-- Token m lies in the block of point m / 128: the row blocks tile the result. -/
theorem cover (i : S8192x4096.Idx) :
    ∃ t : Fin cfg1.N, (cfg1.win 5).flush t = true ∧ i ∈ ((cfg1.win 5).blk t).view.set := by
  have hN : cfg1.N = 64 := N_1
  have hi0 : (i 0).val < 8192 := (i 0).isLt
  have hi1 : (i 1).val < 4096 := (i 1).isLt
  refine ⟨⟨(i 0).val / 128, by rw [hN]; omega⟩, flush1_5 _, ?_⟩
  rw [mem_blk]
  obtain ⟨-, -, -, -, -, -, -, -, -, -, e10, e11⟩ := blockIdx ⟨(i 0).val / 128, by rw [hN]; omega⟩
  intro a
  match a with
  | ⟨0, _⟩ => show win1_5.index _ (0 : Fin 2) * 128 ≤ (i 0).val ∧ (i 0).val < win1_5.index _ (0 : Fin 2) * 128 + 128; rw [e10]; show (i 0).val / 128 * 128 ≤ _ ∧ _ < (i 0).val / 128 * 128 + 128; omega
  | ⟨1, _⟩ => show win1_5.index _ (1 : Fin 2) * 4096 ≤ (i 1).val ∧ (i 1).val < win1_5.index _ (1 : Fin 2) * 4096 + 4096; rw [e11]; omega

/-- After the region the result is the product array of the entry contents. -/
theorem product_final (c : Dev nD) : (dat1 V c).arrAt 5 cfg1.N = productArr V c :=
  (dat1 V c).arrAt_eq_of_cover 5 (productArr V c) (fun t _ => flushed_product V c t) cover

end Cert.KernelIdeal.Product

end
-- ==== Proof.KernelValue.lean ====
/-
  The idealized kernel's result as one function of its six arguments.

  The host stretch leaves every argument as launched and writes s, h_in and h_out again as one-row
  arrays. The binarizing region then leaves sg u and sg v * s; the product region reads x, those two
  factors and the one-row scales, none of which anything has written since. Substituting each
  buffer's contents into the product region's array gives the folded form of the layer.
-/
import proofs.«120608_j59115929862477_2_alg».proof.Proof.KernelRun
import proofs.«120608_j59115929862477_2_alg».proof.Proof.Binarize
import proofs.«120608_j59115929862477_2_alg».proof.Proof.Product
import Idealize.ShloMosaic.Lib.StableHlo.Run

set_option maxRecDepth 16384

noncomputable section

namespace Cert.KernelIdeal.Whole

open Cert.KernelIdeal Cert.KernelIdeal.Gen Cert.KernelIdeal.Out Cert.KernelIdeal.Binarize Cert.KernelIdeal.Product Cert.LowRank
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## After the host stretch -/

theorem afterHost_x (c : Dev nD) : W1 m ρ c (Proc.devRef .tc main_arg0) = m ((c : Thread nD τ).loc main_arg0) := by
  show StableHlo.after hostOps0 (W0 m ρ c) (Proc.devRef .tc main_arg0) = _
  after_results

theorem afterHost_u (c : Dev nD) : V1 m ρ c main_arg1 = m ((c : Thread nD τ).loc main_arg1) := by
  show StableHlo.after hostOps0 (W0 m ρ c) (Proc.devRef .tc main_arg1) = _
  after_results

theorem afterHost_v (c : Dev nD) : V1 m ρ c main_arg2 = m ((c : Thread nD τ).loc main_arg2) := by
  show StableHlo.after hostOps0 (W0 m ρ c) (Proc.devRef .tc main_arg2) = _
  after_results

/-- The scale as a one-row array. -/
theorem afterHost_s (c : Dev nD) :
    V1 m ρ c main_v0 = shapeCast S1x2048 (m ((c : Thread nD τ).loc main_arg3)) shapeCasts_S2048_S1x2048 := by
  show StableHlo.after hostOps0 (W0 m ρ c) (Proc.devRef .tc main_v0) = _
  after_results
  rfl

theorem afterHost_hin (c : Dev nD) :
    W1 m ρ c (Proc.devRef .tc main_v1) = shapeCast S1x4096 (m ((c : Thread nD τ).loc main_arg4)) shapeCasts_S4096_S1x4096 := by
  show StableHlo.after hostOps0 (W0 m ρ c) (Proc.devRef .tc main_v1) = _
  after_results
  rfl

theorem afterHost_hout (c : Dev nD) :
    W1 m ρ c (Proc.devRef .tc main_v2) = shapeCast S1x4096 (m ((c : Thread nD τ).loc main_arg5)) shapeCasts_S4096_S1x4096 := by
  show StableHlo.after hostOps0 (W0 m ρ c) (Proc.devRef .tc main_v2) = _
  after_results
  rfl

/-! ## What the product region is entered from -/

theorem entry_x (c : Dev nD) : V2 m ρ c main_arg0 = m ((c : Thread nD τ).loc main_arg0) :=
  (W2_of_ne m ρ c main_arg0 (by decide)).trans (afterHost_x m ρ c)

theorem entry_hin (c : Dev nD) :
    V2 m ρ c main_v1 = shapeCast S1x4096 (m ((c : Thread nD τ).loc main_arg4)) shapeCasts_S4096_S1x4096 :=
  (W2_of_ne m ρ c main_v1 (by decide)).trans (afterHost_hin m ρ c)

theorem entry_hout (c : Dev nD) :
    V2 m ρ c main_v2 = shapeCast S1x4096 (m ((c : Thread nD τ).loc main_arg5)) shapeCasts_S4096_S1x4096 :=
  (W2_of_ne m ρ c main_v2 (by decide)).trans (afterHost_hout m ρ c)

theorem entry_bu (c : Dev nD) : V2 m ρ c main_v3_0 = signArr (V1 m ρ) c :=
  (W2_arr m ρ c 3).trans (sign_final (V1 m ρ) c)

theorem entry_bv (c : Dev nD) : V2 m ρ c main_v3_1 = scaledSignArr (V1 m ρ) c :=
  (W2_arr m ρ c 4).trans (scaledSign_final (V1 m ρ) c)

/-! ## The one-row copies read at an index -/

/-- A one-axis array written again as one row, read at column i, is the array at i. -/
theorem row4096_at (H : S4096.Idx → EReal) (i : Fin 4096) :
    shapeCast S1x4096 H shapeCasts_S4096_S1x4096 (ix2 0 i) = H (ix1 i) :=
  shapeCast_apply H shapeCasts_S4096_S1x4096 (ix2 0 i) (ix1 i) (by
    rw [Shape.rowMajor_val_one, Shape.rowMajor_val_two]
    show i.val = 0 * 4096 + i.val
    omega)

theorem row2048_at (S : S2048.Idx → EReal) (i : Fin 4096) (r : Fin 2048) :
    shapeCast S1x2048 S shapeCasts_S2048_S1x2048 (scaleIdx (ix2 i r)) = S (ix1 r) :=
  shapeCast_apply S shapeCasts_S2048_S1x2048 (scaleIdx (ix2 i r)) (ix1 r) (by
    rw [Shape.rowMajor_val_one, Shape.rowMajor_val_two]
    show r.val = 0 * 2048 + r.val
    omega)

/-- The product of x with the factors sg v * s and sg u and the one-row scales is the folded form of
    the layer, at every token P and output channel Q. -/
theorem productOf_eq_folded (X : S8192x4096.Idx → EReal) (U Vv : S4096x2048.Idx → EReal) (S : S2048.Idx → EReal)
    (Hin Hout : S4096.Idx → EReal) (P : Fin 8192) (Q : Fin 4096) :
    productOf X (fun i => sg (Vv i) * shapeCast S1x2048 S shapeCasts_S2048_S1x2048 (scaleIdx i)) (fun i => sg (U i))
        (shapeCast S1x4096 Hin shapeCasts_S4096_S1x4096) (shapeCast S1x4096 Hout shapeCasts_S4096_S1x4096) P Q
      = folded X U Vv S Hin Hout (ix2 P Q) := by
  unfold productOf
  simp only [row4096_at, row2048_at]
  rfl

/-- THE KERNEL'S VALUE: the result buffer's last contents are the folded form of the layer of the
    six launched arguments. -/
theorem result_eq_folded (c : Dev nD) :
    W3 m ρ c (Proc.devRef .tc main_v4)
      = folded (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [result_at_exit, product_final]
  funext j
  obtain ⟨P, Q, rfl⟩ : ∃ (P : Fin 8192) (Q : Fin 4096), j = ix2 P Q := ⟨j 0, j 1, eq_ix2 j⟩
  show productOf (V2 m ρ c main_arg0) (V2 m ρ c main_v3_1) (V2 m ρ c main_v3_0) (V2 m ρ c main_v1) (V2 m ρ c main_v2) P Q = _
  rw [entry_x, entry_bv, entry_bu, entry_hin, entry_hout]
  unfold scaledSignArr signArr
  rw [afterHost_v, afterHost_u, afterHost_s]
  exact productOf_eq_folded _ _ _ _ _ _ P Q

end Cert.KernelIdeal.Whole

end
-- ==== Proof.RefLayer.lean ====
/-
  The reference's result is the layer. Read stage by stage at token P and output channel Q, the
  reference computes

      (∑ r, ((∑ i, (x P i * h_in i) * sg (v i r)) * s r) * sg (u Q r)) * h_out Q:

  its two contractions are plain sums over their one contracted axis, the broadcasts of the
  one-axis scales read the scale at the matching coordinate, the transpose of the binarized u
  swaps the two coordinates, and the "where" against zero is the sign.
-/
import proofs.«120608_j59115929862477_2_alg».proof.Proof.Gen.ReferenceIdeal.Read
import proofs.«120608_j59115929862477_2_alg».proof.Proof.Law

noncomputable section

namespace Cert.ReferenceIdeal.Layer

open Cert.ReferenceIdeal Cert.ReferenceIdeal.Read Cert.LowRank
open Idealize.ShloMosaic Idealize.ShloMosaic.ValueIdx

/-- The binarized u, as the reference computes it, is the sign entry by entry. -/
theorem sign_u (x1 : (⟨S4096x2048, .f32⟩ : BufTy).Contents (Elt Ideal)) (i : S4096x2048.Idx) :
    val_main_v3 (F := Ideal) x1 i = sg (x1 i) := by
  rw [val_main_v3_apply, val_main_v2_apply, val_main_v1_apply, val_main_v0_apply, val_main_cst_apply,
    val_main_call0_v0_apply, val_main_cst_0_apply, val_main_call0_v1_apply, val_main_cst_1_apply]
  rfl

/-- The binarized v likewise. -/
theorem sign_v (x2 : (⟨S4096x2048, .f32⟩ : BufTy).Contents (Elt Ideal)) (i : S4096x2048.Idx) :
    val_main_v7 (F := Ideal) x2 i = sg (x2 i) := by
  rw [val_main_v7_apply, val_main_v6_apply, val_main_v5_apply, val_main_v4_apply, val_main_cst_2_apply,
    val_main_call1_v0_apply, val_main_cst_3_apply, val_main_call1_v1_apply, val_main_cst_4_apply]
  rfl

/-- The scaled input x * h_in at token P and input channel i. -/
theorem scaledInput_at (x0 : (⟨S8192x4096, .f32⟩ : BufTy).Contents (Elt Ideal)) (x4 : (⟨S4096, .f32⟩ : BufTy).Contents (Elt Ideal))
    (P : Fin 8192) (i : Fin 4096) : val_main_v10 (F := Ideal) x0 x4 (ix2 P i) = x0 (ix2 P i) * x4 (ix1 i) := by
  have e : idx_main_v8 (idx_main_v9 (ix2 P i)) = ix1 i := funext fun a => Fin.ext (by match a with | ⟨0, _⟩ => rfl)
  rw [val_main_v10_apply, val_main_v9_apply, val_main_v8_apply, e]
  rfl

/-- The first product scaled per rank, at token P and rank k. -/
theorem scaledFirst_at (x0 : (⟨S8192x4096, .f32⟩ : BufTy).Contents (Elt Ideal)) (x2 : (⟨S4096x2048, .f32⟩ : BufTy).Contents (Elt Ideal))
    (x3 : (⟨S2048, .f32⟩ : BufTy).Contents (Elt Ideal)) (x4 : (⟨S4096, .f32⟩ : BufTy).Contents (Elt Ideal)) (P : Fin 8192) (k : Fin 2048) :
    val_main_v14 (F := Ideal) x0 x2 x3 x4 (ix2 P k) = (∑ i : Fin 4096, (x0 (ix2 P i) * x4 (ix1 i)) * sg (x2 (ix2 i k))) * x3 (ix1 k) := by
  have e : idx_main_v12 (idx_main_v13 (ix2 P k)) = ix1 k := funext fun a => Fin.ext (by match a with | ⟨0, _⟩ => rfl)
  rw [val_main_v14_apply, val_main_v11_apply, val_main_v13_apply, val_main_v12_apply, e]
  show (∑ i : Fin 4096, _) * x3 (ix1 k) = _
  refine congrArg (· * x3 (ix1 k)) (Finset.sum_congr rfl fun i _ => ?_)
  have el : lidx_main_v11 (ix2 P k) i = ix2 P i := funext fun a => Fin.ext (by match a with | ⟨0, _⟩ => rfl | ⟨1, _⟩ => rfl)
  have er : ridx_main_v11 (ix2 P k) i = ix2 i k := funext fun a => Fin.ext (by match a with | ⟨0, _⟩ => rfl | ⟨1, _⟩ => rfl)
  rw [el, er, scaledInput_at, sign_v]

/-- The reference's last stage is the layer of its six arguments. -/
theorem result_eq_layer (x0 : (⟨S8192x4096, .f32⟩ : BufTy).Contents (Elt Ideal)) (x1 x2 : (⟨S4096x2048, .f32⟩ : BufTy).Contents (Elt Ideal))
    (x3 : (⟨S2048, .f32⟩ : BufTy).Contents (Elt Ideal)) (x4 x5 : (⟨S4096, .f32⟩ : BufTy).Contents (Elt Ideal)) :
    val_main_v19 (F := Ideal) x0 x1 x2 x3 x4 x5 = layer x0 x1 x2 x3 x4 x5 := by
  funext j
  obtain ⟨P, Q, rfl⟩ : ∃ (P : Fin 8192) (Q : Fin 4096), j = ix2 P Q := ⟨j 0, j 1, eq_ix2 j⟩
  have e : idx_main_v17 (idx_main_v18 (ix2 P Q)) = ix1 Q := funext fun a => Fin.ext (by match a with | ⟨0, _⟩ => rfl)
  rw [val_main_v19_apply, val_main_v16_apply, val_main_v18_apply, val_main_v17_apply, e]
  show (∑ k : Fin 2048, _) * x5 (ix1 Q)
    = (∑ r : Fin 2048, ((∑ i : Fin 4096, (x0 (ix2 P i) * x4 (ix1 i)) * sg (x2 (ix2 i r))) * x3 (ix1 r)) * sg (x1 (ix2 Q r))) * x5 (ix1 Q)
  refine congrArg (· * x5 (ix1 Q)) (Finset.sum_congr rfl fun k _ => ?_)
  have el : lidx_main_v16 (ix2 P Q) k = ix2 P k := funext fun a => Fin.ext (by match a with | ⟨0, _⟩ => rfl | ⟨1, _⟩ => rfl)
  have er : ridx_main_v16 (ix2 P Q) k = ix2 k Q := funext fun a => Fin.ext (by match a with | ⟨0, _⟩ => rfl | ⟨1, _⟩ => rfl)
  have et : idx_main_v15 (ix2 k Q) = ix2 Q k := funext fun a => Fin.ext (by match a with | ⟨0, _⟩ => rfl | ⟨1, _⟩ => rfl)
  rw [el, er, val_main_v15_apply, et, sign_u, scaledFirst_at]

end Cert.ReferenceIdeal.Layer

end
-- ==== Proof.Reals.lean ====
/-
  What the precondition gives: every entry of x, of s and of h_in is a real number.

  The precondition is the conjunction, over the six arguments, of "every entry has absolute value
  below +infinity". On the extended reals an entry's absolute value max a (-a) is below +infinity
  exactly when a is neither infinity, that is, when a is a real number. Only x, s and h_in are
  needed: u and v enter the layer through their signs alone, and h_out multiplies both forms alike.
-/
import proofs.«120608_j59115929862477_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Reals

open Cert.Pre_finite_inputs Idealize.ShloMosaic

variable [Facts]

instance : Subsingleton S_.Idx := ⟨fun a b => funext fun d => d.elim0⟩

/-- The pattern the entries are compared against denotes +infinity. -/
theorem ofBits_inf : Ideal.ofBits .f32 0x7F800000#32 = ⊤ := by
  simp [Ideal.ofBits, Ideal.ieee]

/-- An extended real whose absolute value is below +infinity is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- Under the precondition x, s and h_in hold real numbers. -/
theorem reals_of_pre (X : FVec Ideal S8192x4096 .f32) (U Vv : FVec Ideal S4096x2048 .f32) (S : FVec Ideal S2048 .f32)
    (Hin Hout : FVec Ideal S4096 .f32) (h : fn (F := Ideal) X U Vv S Hin Hout = fun _ => 1#1) :
    (∀ j, ∃ r : ℝ, X j = (r : EReal)) ∧ (∀ j, ∃ r : ℝ, S j = (r : EReal)) ∧ (∀ j, ∃ r : ℝ, Hin j = (r : EReal)) := by
  have h0 := congrFun h ValueIdx.ix0
  dsimp only [fn, fn_part1] at h0
  obtain ⟨h01234, -⟩ := IntOp.andi_eq_one.1 h0
  obtain ⟨h0123, hHin⟩ := IntOp.andi_eq_one.1 h01234
  obtain ⟨h012, hS⟩ := IntOp.andi_eq_one.1 h0123
  obtain ⟨h01, -⟩ := IntOp.andi_eq_one.1 h012
  obtain ⟨hX, -⟩ := IntOp.andi_eq_one.1 h01
  exact ⟨fun j => real_of_abs_lt_inf (X j) (Host.reduce_andi_all _ _ _ _ _ hX j),
    fun j => real_of_abs_lt_inf (S j) (Host.reduce_andi_all _ _ _ _ _ hS j),
    fun j => real_of_abs_lt_inf (Hin j) (Host.reduce_andi_all _ _ _ _ _ hHin j)⟩

end Cert.Pre_finite_inputs.Reals

end
-- ==== Proof.lean ====
/-
  A low-rank binarized linear layer: y = ((x * h_in) (sg v * s)) (sg u)^T * h_out, with sg the
  entrywise sign (+1 at and above zero, -1 below), x of 8192 tokens by 4096 input channels, u and v
  of 4096 by 2048, and one scale per rank (s), per input channel (h_in) and per output channel
  (h_out).

  The kernel binarizes u and v in one region, folding s into the binarized v, and in a second
  region multiplies 128 tokens at a time. The reference multiplies by sg v first and by s after.
  On the extended reals both are exact sums of products, every change of float format being the
  identity, and they differ only in where s sits:

      ∑ i, (x m i * h_in i) * (sg (v i r) * s r)   against   (∑ i, (x m i * h_in i) * sg (v i r)) * s r.

  These agree by distributivity, which on the extended reals needs the terms to be real numbers;
  the precondition makes x, h_in and s real, and sg is always ±1. So the two results are equal
  element by element. The kernel's idealization rewrote no operation, so there is nothing to
  preserve beyond the program text itself.
-/
import proofs.«120608_j59115929862477_2_alg».proof.Defs
import proofs.«120608_j59115929862477_2_alg».proof.Proof.Gen.Kernel
import proofs.«120608_j59115929862477_2_alg».proof.Proof.Gen.Kernel.Frame
import proofs.«120608_j59115929862477_2_alg».proof.Proof.Gen.KernelIdeal
import proofs.«120608_j59115929862477_2_alg».proof.Proof.Gen.KernelIdeal.Frame
import proofs.«120608_j59115929862477_2_alg».proof.Proof.Gen.ReferenceIdeal
import proofs.«120608_j59115929862477_2_alg».proof.Proof.Gen.ReferenceIdeal.Run
import proofs.«120608_j59115929862477_2_alg».proof.Proof.Gen.ReferenceIdeal.Read
import proofs.«120608_j59115929862477_2_alg».proof.Proof.Gen.Pre_finite_inputs
import proofs.«120608_j59115929862477_2_alg».proof.Proof.KernelValue
import proofs.«120608_j59115929862477_2_alg».proof.Proof.RefLayer
import proofs.«120608_j59115929862477_2_alg».proof.Proof.Reals
import Idealize.ShloMosaic.Adequacy
import Idealize.ShloMosaic.Init

noncomputable section

namespace Cert.Proof

open Idealize.ShloMosaic Idealize.ShloMosaic.TcCoe Idealize.SL.Sem Cert.LowRank

/-- The kernel as printed runs to the end without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the six arguments, the idealized kernel and the idealized reference both
    end with the layer of those arguments in their result: the kernel's folded form equals it because
    the precondition makes x, s and h_in real. -/
theorem algebraic : Cert.algebraic_KernelIdeal_ReferenceIdeal := by
  intro m ρ m' ρ' hpre hagree
  refine ⟨fun c => layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Out.run_named (F := Ideal) m ρ)
    obtain ⟨hX, hS, hHin⟩ := Cert.Pre_finite_inputs.Reals.reals_of_pre _ _ _ _ _ _ (hpre c)
    exact (Cert.KernelIdeal.Whole.result_eq_folded m ρ c).trans (folded_eq_layer _ _ _ _ _ _ hX hS hHin)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact (Cert.ReferenceIdeal.Read.val_main_v19_eq _ _ _ _ _ _).trans (Cert.ReferenceIdeal.Layer.result_eq_layer _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
